-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1 : Shape := ⟨2, ![100000, 1]⟩
abbrev S2x6400000 : Shape := ⟨2, ![2, 6400000]⟩
abbrev S16x2 : Shape := ⟨2, ![16, 2]⟩
abbrev S16 : Shape := ⟨1, ![16]⟩
abbrev S16x16 : Shape := ⟨2, ![16, 16]⟩
abbrev S_ : Shape := ⟨0, ![]⟩

class Facts : Prop where
  bcast_S_S100000x1 : S_.BroadcastsInDim S100000x1 (![] : Fin 0 → Fin S100000x1.rank)
  reducesTo_S100000x1_S_d0_1 : S100000x1.ReducesTo [0, 1] S_
  h_S_ : 0 < S_.numel
  bcast_S_S16x2 : S_.BroadcastsInDim S16x2 (![] : Fin 0 → Fin S16x2.rank)
  reducesTo_S16x2_S_d0_1 : S16x2.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_

variable [Facts]

def fn_part1 {F : FTy → Type} [FloatOps F] (main_arg5 : FVec F S16 .f32) (main_v13 : IVec S_ 1) (main_v16 : IVec S16x16 1) : IVec S_ 1 :=
  let main_c_5 : IVec S_ 1 := constantI S_ 1 1#1
  let main_v17 : IVec S_ 1 := (fun x v => Host.reduce IntOp.andi x v reducesTo_S16x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S100000x1 .f32) (main_arg1 : IVec S2x6400000 32) (main_arg2 : FVec F S16x2 .f32) (main_arg3 : FVec F S16 .f32) (main_arg4 : FVec F S16x16 .f32) (main_arg5 : FVec F S16 .f32) : IVec S_ 1 :=
  let main_v0 : FVec F S100000x1 .f32 := Host.absf main_arg0
  let main_cst : FVec F S_ .f32 := constant S_ .f32 0x7F800000#32
  let main_v1 : FVec F S100000x1 .f32 := broadcastInDim S100000x1 ![] bcast_S_S100000x1 main_cst
  let main_v2 : IVec S100000x1 1 := cmpf .olt main_v0 main_v1
  let main_c : IVec S_ 1 := constantI S_ 1 1#1
  let main_v3 : IVec S_ 1 := (fun x v => Host.reduce IntOp.andi x v reducesTo_S100000x1_S_d0_1 h_S_) main_v2 main_c
  let main_v4 : FVec F S16x2 .f32 := Host.absf main_arg2
  let main_cst_0 : FVec F S_ .f32 := constant S_ .f32 0x7F800000#32
  let main_v5 : FVec F S16x2 .f32 := broadcastInDim S16x2 ![] bcast_S_S16x2 main_cst_0
  let main_v6 : IVec S16x2 1 := cmpf .olt main_v4 main_v5
  let main_c_1 : IVec S_ 1 := constantI S_ 1 1#1
  let main_v7 : IVec S_ 1 := (fun x v => Host.reduce IntOp.andi x v reducesTo_S16x2_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x16 .f32 := Host.absf main_arg4
  let main_cst_4 : FVec F S_ .f32 := constant S_ .f32 0x7F800000#32
  let main_v15 : FVec F S16x16 .f32 := broadcastInDim S16x16 ![] bcast_S_S16x16 main_cst_4
  let main_v16 : IVec S16x16 1 := cmpf .olt main_v14 main_v15
  fn_part1 (F := F) main_arg5 main_v13 main_v16
-- ==== Kernel.lean ====
abbrev S100000x1 : Shape := ⟨2, ![100000, 1]⟩
abbrev S2x6400000 : Shape := ⟨2, ![2, 6400000]⟩
abbrev S16x2 : Shape := ⟨2, ![16, 2]⟩
abbrev S16 : Shape := ⟨1, ![16]⟩
abbrev S16x16 : Shape := ⟨2, ![16, 16]⟩
abbrev S1x6400000 : Shape := ⟨2, ![1, 6400000]⟩
abbrev S6400000 : Shape := ⟨1, ![6400000]⟩
abbrev S_ : Shape := ⟨0, ![]⟩
abbrev S6400000x1 : Shape := ⟨2, ![6400000, 1]⟩
abbrev S100000x2 : Shape := ⟨2, ![100000, 2]⟩
abbrev S2x16 : Shape := ⟨2, ![2, 16]⟩
abbrev S1x16 : Shape := ⟨2, ![1, 16]⟩
abbrev S100000x16 : Shape := ⟨2, ![100000, 16]⟩
abbrev S10000x2 : Shape := ⟨2, ![10000, 2]⟩
abbrev S10000x16 : Shape := ⟨2, ![10000, 16]⟩

abbrev nBuf : Space → Nat
  | .hbm => 39
  | .vmem => 8
  | .smem => 0
  | _ => 0

abbrev bufTy : (tb : Table) → Fin (tcTables nBuf tb) → BufTy
  | .hbm, ⟨0, _⟩ => ⟨S100000x1, .f32⟩
  | .hbm, ⟨1, _⟩ => ⟨S2x6400000, .i32⟩
  | .hbm, ⟨2, _⟩ => ⟨S16x2, .f32⟩
  | .hbm, ⟨3, _⟩ => ⟨S16, .f32⟩
  | .hbm, ⟨4, _⟩ => ⟨S16x16, .f32⟩
  | .hbm, ⟨5, _⟩ => ⟨S16, .f32⟩
  | .hbm, ⟨6, _⟩ => ⟨S1x6400000, .i32⟩
  | .hbm, ⟨7, _⟩ => ⟨S6400000, .i32⟩
  | .hbm, ⟨8, _⟩ => ⟨S1x6400000, .i32⟩
  | .hbm, ⟨9, _⟩ => ⟨S6400000, .i32⟩
  | .hbm, ⟨10, _⟩ => ⟨S_, .i32⟩
  | .hbm, ⟨11, _⟩ => ⟨S6400000, .i32⟩
  | .hbm, ⟨12, _⟩ => ⟨S6400000, .i1⟩
  | .hbm, ⟨13, _⟩ => ⟨S_, .i32⟩
  | .hbm, ⟨14, _⟩ => ⟨S6400000, .i32⟩
  | .hbm, ⟨15, _⟩ => ⟨S6400000, .i32⟩
  | .hbm, ⟨16, _⟩ => ⟨S6400000, .i32⟩
  | .hbm, ⟨17, _⟩ => ⟨S6400000x1, .i32⟩
  | .hbm, ⟨18, _⟩ => ⟨S6400000x1, .f32⟩
  | .hbm, ⟨19, _⟩ => ⟨S_, .i32⟩
  | .hbm, ⟨20, _⟩ => ⟨S6400000, .i32⟩
  | .hbm, ⟨21, _⟩ => ⟨S6400000, .i1⟩
  | .hbm, ⟨22, _⟩ => ⟨S_, .i32⟩
  | .hbm, ⟨23, _⟩ => ⟨S6400000, .i32⟩
  | .hbm, ⟨24, _⟩ => ⟨S6400000, .i32⟩
  | .hbm, ⟨25, _⟩ => ⟨S6400000, .i32⟩
  | .hbm, ⟨26, _⟩ => ⟨S6400000x1, .i32⟩
  | .hbm, ⟨27, _⟩ => ⟨S6400000x1, .f32⟩
  | .hbm, ⟨28, _⟩ => ⟨S6400000x1, .f32⟩
  | .hbm, ⟨29, _⟩ => ⟨S_, .f32⟩
  | .hbm, ⟨30, _⟩ => ⟨S100000x1, .f32⟩
  | .hbm, ⟨31, _⟩ => ⟨S6400000x1, .i32⟩
  | .hbm, ⟨32, _⟩ => ⟨S100000x1, .f32⟩
  | .hbm, ⟨33, _⟩ => ⟨S100000x2, .f32⟩
  | .hbm, ⟨34, _⟩ => ⟨S2x16, .f32⟩
  | .hbm, ⟨35, _⟩ => ⟨S16x16, .f32⟩
  | .hbm, ⟨36, _⟩ => ⟨S1x16, .f32⟩
  | .hbm, ⟨37, _⟩ => ⟨S1x16, .f32⟩
  | .hbm, ⟨38, _⟩ => ⟨S100000x16, .f32⟩
  | .local _ .vmem, ⟨0, _⟩ => ⟨S10000x2, .f32⟩
  | .local _ .vmem, ⟨1, _⟩ => ⟨S10000x2, .f32⟩
  | .local _ .vmem, ⟨2, _⟩ => ⟨S2x16, .f32⟩
  | .local _ .vmem, ⟨3, _⟩ => ⟨S1x16, .f32⟩
  | .local _ .vmem, ⟨4, _⟩ => ⟨S16x16, .f32⟩
  | .local _ .vmem, ⟨5, _⟩ => ⟨S1x16, .f32⟩
  | .local _ .vmem, ⟨6, _⟩ => ⟨S10000x16, .f32⟩
  | .local _ .vmem, ⟨7, _⟩ => ⟨S10000x16, .f32⟩
  | _, _ => ⟨S100000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  bcast_S_S6400000 : S_.BroadcastsInDim S6400000 (![] : Fin 0 → Fin S6400000.rank)
  bcast_S6400000_S6400000x1_0 : S6400000.BroadcastsInDim S6400000x1 (![0] : Fin 1 → Fin S6400000x1.rank)
  bcast_S_S100000x1 : S_.BroadcastsInDim S100000x1 (![] : Fin 0 → Fin S100000x1.rank)
  concatenates_S100000x1_S100000x1_S100000x2_d1 : Shape.Concatenates [S100000x1, S100000x1] S100000x2 1
  transposes_S16x2_S2x16_1_0 : S16x2.Transposes [1, 0] S2x16
  transposes_S16x16_S16x16_1_0 : S16x16.Transposes [1, 0] S16x16
  shapeCasts_S16_S1x16 : S16.ShapeCasts S1x16
  inb_S10000x2_S10000x2_0_0 : ∀ a, (![0, 0] : Fin 2 → Nat) a + S10000x2.size a ≤ S10000x2.size a
  h_S10000x2 : 0 < S10000x2.numel
  shapeCasts_S10000x2_S10000x2 : S10000x2.ShapeCasts S10000x2
  bitsLt_bf16_f32 : FTy.bits .bf16 < FTy.bits .f32
  inb_S2x16_S2x16_0_0 : ∀ a, (![0, 0] : Fin 2 → Nat) a + S2x16.size a ≤ S2x16.size a
  h_S2x16 : 0 < S2x16.numel
  shapeCasts_S2x16_S2x16 : S2x16.ShapeCasts S2x16
  inb_S16x16_S16x16_0_0 : ∀ a, (![0, 0] : Fin 2 → Nat) a + S16x16.size a ≤ S16x16.size a
  h_S16x16 : 0 < S16x16.numel
  shapeCasts_S16x16_S16x16 : S16x16.ShapeCasts S16x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S10000x16_S10000x16_0_0 : ∀ a, (![0, 0] : Fin 2 → Nat) a + S10000x16.size a ≤ S10000x16.size a
  h_S10000x16 : 0 < S10000x16.numel
  gather_S100000x1_S6400000x1_S6400000x1_1_0_n_n_0_1_11_wf : GatherDims.WF S100000x1 S6400000x1 S6400000x1 [1] [0] [] [0] [] 1 ![1, 1]
  scatter_S100000x1_S6400000x1_S6400000x1_1_0_0_1_wf : ScatterDims.WF S100000x1 S6400000x1 S6400000x1 [1] [0] [0] 1
  dot_S10000x2_S2x16_S10000x16_1_0_0_1_n_n_wf : DotDims.WF S10000x2 S2x16 S10000x16 [1] [0] [0] [1] [] []
  dot_S10000x16_S16x16_S10000x16_1_0_0_1_n_n_wf : DotDims.WF S10000x16 S16x16 S10000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x2.size a ≤ S100000x2.size a
  hwx0_0 : ∀ i : grid0.Coords, EltTy.bits .f32 = 32 ∨ (Rect.block (s := S100000x2) S10000x2.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x16.size a ≤ S2x16.size a
  hwx0_1 : ∀ i : grid0.Coords, EltTy.bits .f32 = 32 ∨ (Rect.block (s := S2x16) S2x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16.size a ≤ S1x16.size a
  hwx0_2 : ∀ i : grid0.Coords, EltTy.bits .f32 = 32 ∨ (Rect.block (s := S1x16) S1x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x16.size a ≤ S16x16.size a
  hwx0_3 : ∀ i : grid0.Coords, EltTy.bits .f32 = 32 ∨ (Rect.block (s := S16x16) S16x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x16.size a ≤ S1x16.size a
  hwx0_4 : ∀ i : grid0.Coords, EltTy.bits .f32 = 32 ∨ (Rect.block (s := S1x16) S1x16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x16.size a ≤ S100000x16.size a
  hwx0_5 : ∀ i : grid0.Coords, EltTy.bits .f32 = 32 ∨ (Rect.block (s := S100000x16) S10000x16.size (cc0_transform_5 i) (hinb0_5 i)).WholeWords (EltTy.packing .f32)

variable [Facts₀]

def gather_S100000x1_S6400000x1_S6400000x1_1_0_n_n_0_1_11 : GatherDims S100000x1 S6400000x1 S6400000x1 where
  offsetDims := [1]
  collapsedSliceDims := [0]
  operandBatchingDims := []
  startIndicesBatchingDims := []
  startIndexMap := [0]
  indexVectorDim := 1
  sliceSizes := ![1, 1]
  wf := gather_S100000x1_S6400000x1_S6400000x1_1_0_n_n_0_1_11_wf
def scatter_S100000x1_S6400000x1_S6400000x1_1_0_0_1 : ScatterDims S100000x1 S6400000x1 S6400000x1 where
  updateWindowDims := [1]
  insertedWindowDims := [0]
  scatterDimsToOperandDims := [0]
  indexVectorDim := 1
  wf := scatter_S100000x1_S6400000x1_S6400000x1_1_0_0_1_wf
def dot_S10000x2_S2x16_S10000x16_1_0_0_1_n_n : DotDims S10000x2 S2x16 S10000x16 where
  lhsContracting := [1]
  rhsContracting := [0]
  lhsNonContracting := [0]
  rhsNonContracting := [1]
  lhsBatch := []
  rhsBatch := []
  wf := dot_S10000x2_S2x16_S10000x16_1_0_0_1_n_n_wf
def dot_S10000x16_S16x16_S10000x16_1_0_0_1_n_n : DotDims S10000x16 S16x16 S10000x16 where
  lhsContracting := [1]
  rhsContracting := [0]
  lhsNonContracting := [0]
  rhsNonContracting := [1]
  lhsBatch := []
  rhsBatch := []
  wf := dot_S10000x16_S16x16_S10000x16_1_0_0_1_n_n_wf

abbrev win0_0 : Pipeline.Window sig grid0 :=
  Pipeline.Window.ofSpec (Memref.whole main_v22) S10000x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S2x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v25) S1x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S16x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S1x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v27) S10000x16.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x1 : Shape := ⟨2, ![100000, 1]⟩
abbrev S2x6400000 : Shape := ⟨2, ![2, 6400000]⟩
abbrev S16x2 : Shape := ⟨2, ![16, 2]⟩
abbrev S16 : Shape := ⟨1, ![16]⟩
abbrev S16x16 : Shape := ⟨2, ![16, 16]⟩
abbrev S1x6400000 : Shape := ⟨2, ![1, 6400000]⟩
abbrev S6400000 : Shape := ⟨1, ![6400000]⟩
abbrev S_ : Shape := ⟨0, ![]⟩
abbrev S6400000x1 : Shape := ⟨2, ![6400000, 1]⟩
abbrev S100000x2 : Shape := ⟨2, ![100000, 2]⟩
abbrev S2x16 : Shape := ⟨2, ![2, 16]⟩
abbrev S100000x16 : Shape := ⟨2, ![100000, 16]⟩
abbrev S1x16 : Shape := ⟨2, ![1, 16]⟩

abbrev nBuf : Space → Nat
  | .hbm => 50
  | .vmem => 0
  | .smem => 0
  | _ => 0

abbrev bufTy : (tb : Table) → Fin (tcTables nBuf tb) → BufTy
  | .hbm, ⟨0, _⟩ => ⟨S100000x1, .f32⟩
  | .hbm, ⟨1, _⟩ => ⟨S2x6400000, .i32⟩
  | .hbm, ⟨2, _⟩ => ⟨S16x2, .f32⟩
  | .hbm, ⟨3, _⟩ => ⟨S16, .f32⟩
  | .hbm, ⟨4, _⟩ => ⟨S16x16, .f32⟩
  | .hbm, ⟨5, _⟩ => ⟨S16, .f32⟩
  | .hbm, ⟨6, _⟩ => ⟨S1x6400000, .i32⟩
  | .hbm, ⟨7, _⟩ => ⟨S6400000, .i32⟩
  | .hbm, ⟨8, _⟩ => ⟨S1x6400000, .i32⟩
  | .hbm, ⟨9, _⟩ => ⟨S6400000, .i32⟩
  | .hbm, ⟨10, _⟩ => ⟨S_, .i32⟩
  | .hbm, ⟨11, _⟩ => ⟨S6400000, .i32⟩
  | .hbm, ⟨12, _⟩ => ⟨S6400000, .i1⟩
  | .hbm, ⟨13, _⟩ => ⟨S_, .i32⟩
  | .hbm, ⟨14, _⟩ => ⟨S6400000, .i32⟩
  | .hbm, ⟨15, _⟩ => ⟨S6400000, .i32⟩
  | .hbm, ⟨16, _⟩ => ⟨S6400000, .i32⟩
  | .hbm, ⟨17, _⟩ => ⟨S6400000x1, .i32⟩
  | .hbm, ⟨18, _⟩ => ⟨S6400000x1, .f32⟩
  | .hbm, ⟨19, _⟩ => ⟨S_, .i32⟩
  | .hbm, ⟨20, _⟩ => ⟨S6400000, .i32⟩
  | .hbm, ⟨21, _⟩ => ⟨S6400000, .i1⟩
  | .hbm, ⟨22, _⟩ => ⟨S_, .i32⟩
  | .hbm, ⟨23, _⟩ => ⟨S6400000, .i32⟩
  | .hbm, ⟨24, _⟩ => ⟨S6400000, .i32⟩
  | .hbm, ⟨25, _⟩ => ⟨S6400000, .i32⟩
  | .hbm, ⟨26, _⟩ => ⟨S6400000x1, .i32⟩
  | .hbm, ⟨27, _⟩ => ⟨S6400000x1, .f32⟩
  | .hbm, ⟨28, _⟩ => ⟨S6400000x1, .f32⟩
  | .hbm, ⟨29, _⟩ => ⟨S_, .f32⟩
  | .hbm, ⟨30, _⟩ => ⟨S100000x1, .f32⟩
  | .hbm, ⟨31, _⟩ => ⟨S6400000x1, .i32⟩
  | .hbm, ⟨32, _⟩ => ⟨S100000x1, .f32⟩
  | .hbm, ⟨33, _⟩ => ⟨S100000x2, .f32⟩
  | .hbm, ⟨34, _⟩ => ⟨S2x16, .f32⟩
  | .hbm, ⟨35, _⟩ => ⟨S100000x16, .f32⟩
  | .hbm, ⟨36, _⟩ => ⟨S1x16, .f32⟩
  | .hbm, ⟨37, _⟩ => ⟨S100000x16, .f32⟩
  | .hbm, ⟨38, _⟩ => ⟨S100000x16, .f32⟩
  | .hbm, ⟨39, _⟩ => ⟨S_, .f32⟩
  | .hbm, ⟨40, _⟩ => ⟨S100000x16, .f32⟩
  | .hbm, ⟨41, _⟩ => ⟨S100000x16, .f32⟩
  | .hbm, ⟨42, _⟩ => ⟨S16x16, .f32⟩
  | .hbm, ⟨43, _⟩ => ⟨S100000x16, .f32⟩
  | .hbm, ⟨44, _⟩ => ⟨S1x16, .f32⟩
  | .hbm, ⟨45, _⟩ => ⟨S100000x16, .f32⟩
  | .hbm, ⟨46, _⟩ => ⟨S100000x16, .f32⟩
  | .hbm, ⟨47, _⟩ => ⟨S_, .f32⟩
  | .hbm, ⟨48, _⟩ => ⟨S100000x16, .f32⟩
  | .hbm, ⟨49, _⟩ => ⟨S100000x16, .f32⟩
  | _, _ => ⟨S100000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_call0_cst : Ref sig .tc := ⟨.hbm, 39, rfl⟩
abbrev main_call0_v0 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_call1_cst : Ref sig .tc := ⟨.hbm, 47, rfl⟩
abbrev main_call1_v0 : Ref sig .tc := ⟨.hbm, 48, rfl⟩
abbrev main_v34 : Ref sig .tc := ⟨.hbm, 49, rfl⟩

abbrev nD : Nat := 1
abbrev τ : Topo := Topo.v7x

variable {F : FTy → Type} [FloatOps F]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  bcast_S_S6400000 : S_.BroadcastsInDim S6400000 (![] : Fin 0 → Fin S6400000.rank)
  bcast_S6400000_S6400000x1_0 : S6400000.BroadcastsInDim S6400000x1 (![0] : Fin 1 → Fin S6400000x1.rank)
  bcast_S_S100000x1 : S_.BroadcastsInDim S100000x1 (![] : Fin 0 → Fin S100000x1.rank)
  concatenates_S100000x1_S100000x1_S100000x2_d1 : Shape.Concatenates [S100000x1, S100000x1] S100000x2 1
  transposes_S16x2_S2x16_1_0 : S16x2.Transposes [1, 0] S2x16
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x16 : S_.BroadcastsInDim S100000x16 (![] : Fin 0 → Fin S100000x16.rank)
  transposes_S16x16_S16x16_1_0 : S16x16.Transposes [1, 0] S16x16
  gather_S100000x1_S6400000x1_S6400000x1_1_0_n_n_0_1_11_wf : GatherDims.WF S100000x1 S6400000x1 S6400000x1 [1] [0] [] [0] [] 1 ![1, 1]
  scatter_S100000x1_S6400000x1_S6400000x1_1_0_0_1_wf : ScatterDims.WF S100000x1 S6400000x1 S6400000x1 [1] [0] [0] 1
  dot_S100000x2_S2x16_S100000x16_1_0_0_1_n_n_wf : DotDims.WF S100000x2 S2x16 S100000x16 [1] [0] [0] [1] [] []
  dot_S100000x16_S16x16_S100000x16_1_0_0_1_n_n_wf : DotDims.WF S100000x16 S16x16 S100000x16 [1] [0] [0] [1] [] []

variable [Facts₀]

def gather_S100000x1_S6400000x1_S6400000x1_1_0_n_n_0_1_11 : GatherDims S100000x1 S6400000x1 S6400000x1 where
  offsetDims := [1]
  collapsedSliceDims := [0]
  operandBatchingDims := []
  startIndicesBatchingDims := []
  startIndexMap := [0]
  indexVectorDim := 1
  sliceSizes := ![1, 1]
  wf := gather_S100000x1_S6400000x1_S6400000x1_1_0_n_n_0_1_11_wf
def scatter_S100000x1_S6400000x1_S6400000x1_1_0_0_1 : ScatterDims S100000x1 S6400000x1 S6400000x1 where
  updateWindowDims := [1]
  insertedWindowDims := [0]
  scatterDimsToOperandDims := [0]
  indexVectorDim := 1
  wf := scatter_S100000x1_S6400000x1_S6400000x1_1_0_0_1_wf
def dot_S100000x2_S2x16_S100000x16_1_0_0_1_n_n : DotDims S100000x2 S2x16 S100000x16 where
  lhsContracting := [1]
  rhsContracting := [0]
  lhsNonContracting := [0]
  rhsNonContracting := [1]
  lhsBatch := []
  rhsBatch := []
  wf := dot_S100000x2_S2x16_S100000x16_1_0_0_1_n_n_wf
def dot_S100000x16_S16x16_S100000x16_1_0_0_1_n_n : DotDims S100000x16 S16x16 S100000x16 where
  lhsContracting := [1]
  rhsContracting := [0]
  lhsNonContracting := [0]
  rhsNonContracting := [1]
  lhsBatch := []
  rhsBatch := []
  wf := dot_S100000x16_S16x16_S100000x16_1_0_0_1_n_n_wf

class Facts : Prop extends Facts₀ where

variable [Facts]
-- ==== Proof.LibMatmul2.lean ====
/-
  A plain matrix product read at an index.

  A `tpu.matmul` with dimension numbers "contract axis 1 of the left operand with axis 0 of the right, no batch axes"
  of an [A, K] and a [K, B] matrix into the zero accumulator is, at the ideal values and at output position (p, q),
  the sum over k < K of left(p, k) · right(k, q): the contraction shape has the one axis of extent K, and the operand
  indices at output (p, q) and contraction position k are (p, k) and (k, q).
-/
import Idealize.ShloMosaic.PureOps.Ideal.Laws
import Idealize.ShloMosaic.Lib.ValueIdx

noncomputable section

namespace Cert.Lib

open Idealize.ShloMosaic Idealize.ShloMosaic.ValueIdx

variable {A K B : ℕ} {φ₁ φ₂ : FTy}

/-- The dimension numbers of a plain matrix product: rows × contraction times contraction × columns. -/
abbrev plain2 (wf : DotDims.WF ⟨2, ![A, K]⟩ ⟨2, ![K, B]⟩ ⟨2, ![A, B]⟩ [1] [0] [0] [1] [] []) :
    DotDims ⟨2, ![A, K]⟩ ⟨2, ![K, B]⟩ ⟨2, ![A, B]⟩ := ⟨[1], [0], [0], [1], [], [], wf⟩

/-- Its contraction shape has one axis, -/
theorem plain2_rank (wf : DotDims.WF ⟨2, ![A, K]⟩ ⟨2, ![K, B]⟩ ⟨2, ![A, B]⟩ [1] [0] [0] [1] [] []) :
    (plain2 wf).contr.rank = 1 := rfl

/-- of extent `K`. -/
theorem plain2_size (wf : DotDims.WF ⟨2, ![A, K]⟩ ⟨2, ![K, B]⟩ ⟨2, ![A, B]⟩ [1] [0] [0] [1] [] []) :
    (plain2 wf).contr.size ⟨0, by rw [plain2_rank]; exact Nat.one_pos⟩ = K := rfl

/-- The product into the zero accumulator at (p, q) is `∑ k, l (p, k) * r (k, q)`. -/
theorem matmul2_zero_apply (wf : DotDims.WF ⟨2, ![A, K]⟩ ⟨2, ![K, B]⟩ ⟨2, ![A, B]⟩ [1] [0] [0] [1] [] [])
    (l : FVec Ideal ⟨2, ![A, K]⟩ φ₁) (r : FVec Ideal ⟨2, ![K, B]⟩ φ₂) (p : Fin A) (q : Fin B) :
    matmul (plain2 wf) none l r (constant ⟨2, ![A, B]⟩ .f32 0x00000000#32) (ix2 p q)
      = ∑ k : Fin K, l (ix2 p k) * r (ix2 k q) := by
  refine (Ideal.matmul_constant_zero_apply (plain2 wf) none l r (ix2 p q)).trans ?_
  refine (Equiv.sum_comp (contrEquiv1 (plain2 wf) K (plain2_rank wf) (plain2_size wf)).symm _).symm.trans ?_
  refine Finset.sum_congr rfl fun k _ => ?_
  have hk := contrEquiv1_symm_val (plain2 wf) K (plain2_rank wf) (plain2_size wf) k
  have hl : (plain2 wf).lhsIdx (ix2 p q) ((contrEquiv1 (plain2 wf) K (plain2_rank wf) (plain2_size wf)).symm k) = ix2 p k := by
    funext a; apply Fin.ext
    match a with
    | ⟨0, _⟩ => simp [DotDims.lhsIdx]; rfl
    | ⟨1, _⟩ => exact (DotDims.lhsIdx_val_of_single (plain2 wf) (cl := 1) rfl (ix2 p q) _).trans hk
  have hr : (plain2 wf).rhsIdx (ix2 p q) ((contrEquiv1 (plain2 wf) K (plain2_rank wf) (plain2_size wf)).symm k) = ix2 k q := by
    funext a; apply Fin.ext
    match a with
    | ⟨0, _⟩ => exact (DotDims.rhsIdx_val_of_single (plain2 wf) (cr := 0) rfl (ix2 p q) _).trans hk
    | ⟨1, _⟩ => simp [DotDims.rhsIdx]; rfl
  show l _ * r _ = _
  rw [hl, hr]

end Cert.Lib

end
-- ==== Proof.Spec.lean ====
/-
  The function both programs compute, row by row.

  A node's two features x = (x₀, x₁) go through a two-layer perceptron with sixteen hidden units and sixteen outputs:
  hidden unit k is  max (x₀ · w1[k,0] + x₁ · w1[k,1] + b1[k], 0),  output q is
  max (∑ₖ hidden k · w2[q,k] + b2[q], 0).  On the extended reals these are plain sums, products and maxima; nothing
  here needs the entries to be finite, because the two programs form the same sums of the same products in the same
  order of factors.
-/
import Idealize.ShloMosaic.PureOps.Ideal
import Idealize.ShloMosaic.Lib.ValueIdx

noncomputable section

namespace Cert.Mlp

open Idealize.ShloMosaic Idealize.ShloMosaic.ValueIdx

/-- Hidden unit `k` of one row: the row's features against row `k` of the first weight matrix, plus the bias, clamped at zero. -/
def hidden (x : Fin 2 → EReal) (w1 : Fin 16 → Fin 2 → EReal) (b1 : Fin 16 → EReal) (k : Fin 16) : EReal :=
  max ((∑ j : Fin 2, x j * w1 k j) + b1 k) 0

/-- Output `q` of one row: the hidden units against row `q` of the second weight matrix, plus the bias, clamped at zero. -/
def token (x : Fin 2 → EReal) (w1 : Fin 16 → Fin 2 → EReal) (b1 : Fin 16 → EReal) (w2 : Fin 16 → Fin 16 → EReal)
    (b2 : Fin 16 → EReal) (q : Fin 16) : EReal :=
  max ((∑ k : Fin 16, hidden x w1 b1 k * w2 q k) + b2 q) 0

/-- The whole result: row `r`, column `q` is output `q` of row `r` of the feature matrix. -/
def tokens (feats : FVec Ideal ⟨2, ![100000, 2]⟩ .f32) (w1 : FVec Ideal ⟨2, ![16, 2]⟩ .f32) (b1 : FVec Ideal ⟨1, ![16]⟩ .f32)
    (w2 : FVec Ideal ⟨2, ![16, 16]⟩ .f32) (b2 : FVec Ideal ⟨1, ![16]⟩ .f32) : FVec Ideal ⟨2, ![100000, 16]⟩ .f32 :=
  fun i => token (fun j => feats (ix2 (i 0) j)) (fun k j => w1 (ix2 k j)) (fun k => b1 (ix1 k))
    (fun q k => w2 (ix2 q k)) (fun q => b2 (ix1 q)) (i 1)

/-- The result at a row and a column given as numbers. -/
theorem tokens_ix2 (feats : FVec Ideal ⟨2, ![100000, 2]⟩ .f32) (w1 : FVec Ideal ⟨2, ![16, 2]⟩ .f32) (b1 : FVec Ideal ⟨1, ![16]⟩ .f32)
    (w2 : FVec Ideal ⟨2, ![16, 16]⟩ .f32) (b2 : FVec Ideal ⟨1, ![16]⟩ .f32) (r : Fin 100000) (q : Fin 16) :
    tokens feats w1 b1 w2 b2 (ix2 r q) = token (fun j => feats (ix2 r j)) (fun k j => w1 (ix2 k j)) (fun k => b1 (ix1 k))
      (fun q k => w2 (ix2 q k)) (fun q => b2 (ix1 q)) q := rfl

end Cert.Mlp

end
-- ==== Proof.Payload.lean ====
/-
  What the kernel body stores, entry by entry.

  The body multiplies its block of feature rows by the transposed first weight matrix into a zero accumulator, adds
  the bias row to every row, clamps at zero, multiplies by the transposed second weight matrix into a zero
  accumulator, adds the second bias row and clamps again.  On the extended reals a change of float format is the
  identity and a product into the zero accumulator is the sum of products, so entry (p, q) of what is stored is output
  q of the perceptron applied to row p of the block.
-/
import proofs.«110292_j91182155694146_2_alg».proof.Proof.Gen.KernelIdeal.Skeleton
import proofs.«110292_j91182155694146_2_alg».proof.Proof.LibMatmul2
import proofs.«110292_j91182155694146_2_alg».proof.Proof.Spec
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen Idealize.ShloMosaic Idealize.ShloMosaic.ValueIdx Cert.Mlp

/-- The first product: a block of feature rows against the [2, 16] matrix, into zero. -/
theorem first_product {φ₁ φ₂ : FTy} (l : FVec Ideal S10000x2 φ₁) (r : FVec Ideal S2x16 φ₂) (p : Fin 10000) (k : Fin 16) :
    matmul dot_S10000x2_S2x16_S10000x16_1_0_0_1_n_n none l r (constant S10000x16 .f32 0x00000000#32) (ix2 p k)
      = ∑ j : Fin 2, l (ix2 p j) * r (ix2 j k) :=
  Cert.Lib.matmul2_zero_apply Facts₀.dot_S10000x2_S2x16_S10000x16_1_0_0_1_n_n_wf l r p k

/-- The second product: a block of hidden rows against the [16, 16] matrix, into zero. -/
theorem second_product {φ₁ φ₂ : FTy} (l : FVec Ideal S10000x16 φ₁) (r : FVec Ideal S16x16 φ₂) (p : Fin 10000) (q : Fin 16) :
    matmul dot_S10000x16_S16x16_S10000x16_1_0_0_1_n_n none l r (constant S10000x16 .f32 0x00000000#32) (ix2 p q)
      = ∑ k : Fin 16, l (ix2 p k) * r (ix2 k q) :=
  Cert.Lib.matmul2_zero_apply Facts₀.dot_S10000x16_S16x16_S10000x16_1_0_0_1_n_n_wf l r p q

/-- Entry (p, q) of what the body stores is output q of the perceptron on row p of the feature block, with the
    weights read through their transposes and the biases from their one row. -/
theorem payload_apply (x0 : Vec Ideal S10000x2 .f32) (x1 : Vec Ideal S2x16 .f32) (x3 : Vec Ideal S16x16 .f32)
    (x2 : Vec Ideal S1x16 .f32) (x4 : Vec Ideal S1x16 .f32) (p : Fin 10000) (q : Fin 16) :
    k0_pay1 x0 x1 x3 x2 x4 (ix2 p q)
      = token (fun j => x0 (ix2 p j)) (fun k j => x1 (ix2 j k)) (fun k => x2 (ix2 (0 : Fin 1) k))
          (fun q k => x3 (ix2 k q)) (fun q => x4 (ix2 (0 : Fin 1) q)) q := by
  unfold k0_pay1
  simp only [shapeCast_self]
  -- the outer clamp, the second bias and the second product
  refine (maximumf_apply _ _ _).trans ?_
  unfold Cert.Mlp.token
  refine congrArg₂ max ?_ Ideal.ofBits_zero_f32
  refine (addf_apply _ _ _).trans ?_
  refine congrArg₂ (· + ·) ?_ (broadcastTo_1b_ab_apply x4 _ p q)
  refine (second_product _ _ p q).trans ?_
  refine Finset.sum_congr rfl fun k _ => ?_
  refine congrArg₂ (· * ·) ?_ rfl
  -- the hidden unit: the inner clamp, the first bias and the first product
  refine (maximumf_apply _ _ _).trans ?_
  unfold Cert.Mlp.hidden
  refine congrArg₂ max ?_ Ideal.ofBits_zero_f32
  refine (addf_apply _ _ _).trans ?_
  exact congrArg₂ (· + ·) (first_product _ _ p k) (broadcastTo_1b_ab_apply x2 _ p k)

/-- The same for a block sitting at row offset `o` of a whole feature matrix: when the block's rows are the matrix's rows
    from `o` on, its weight blocks the transposes of the weight matrices and its bias rows the bias vectors, entry
    (p, q) of what is stored is entry (o + p, q) of the whole result. -/
theorem block_entry (x0 : Vec Ideal S10000x2 .f32) (x1 : Vec Ideal S2x16 .f32) (x3 : Vec Ideal S16x16 .f32)
    (x2 : Vec Ideal S1x16 .f32) (x4 : Vec Ideal S1x16 .f32)
    (feats : FVec Ideal S100000x2 .f32) (w1 : FVec Ideal S16x2 .f32) (b1 : FVec Ideal S16 .f32)
    (w2 : FVec Ideal S16x16 .f32) (b2 : FVec Ideal S16 .f32) (o : ℕ)
    (h0 : ∀ (p : Fin 10000) (j : Fin 2) (r : Fin 100000), r.val = o + p.val → x0 (ix2 p j) = feats (ix2 r j))
    (h1 : ∀ (j : Fin 2) (k : Fin 16), x1 (ix2 j k) = w1 (ix2 k j))
    (h2 : ∀ k : Fin 16, x2 (ix2 (0 : Fin 1) k) = b1 (ix1 k))
    (h3 : ∀ k q : Fin 16, x3 (ix2 k q) = w2 (ix2 q k))
    (h4 : ∀ q : Fin 16, x4 (ix2 (0 : Fin 1) q) = b2 (ix1 q))
    (y : S10000x16.Idx) (i : S100000x16.Idx) (hi0 : (i 0).val = o + (y 0).val) (hi1 : (i 1).val = (y 1).val) :
    k0_pay1 x0 x1 x3 x2 x4 y = Cert.Mlp.tokens feats w1 b1 w2 b2 i := by
  obtain ⟨p, q, rfl⟩ : ∃ (p : Fin 10000) (q : Fin 16), y = ix2 p q := ⟨y 0, y 1, eq_ix2 y⟩
  obtain ⟨r, q', rfl⟩ : ∃ (r : Fin 100000) (q' : Fin 16), i = ix2 r q' := ⟨i 0, i 1, eq_ix2 i⟩
  have hq : q' = q := Fin.ext hi1
  subst hq
  have e0 : (fun j => x0 (ix2 p j)) = fun j => feats (ix2 r j) := funext fun j => h0 p j r hi0
  have e1 : (fun (k : Fin 16) (j : Fin 2) => x1 (ix2 j k)) = fun k j => w1 (ix2 k j) := funext fun k => funext fun j => h1 j k
  have e2 : (fun k : Fin 16 => x2 (ix2 (0 : Fin 1) k)) = fun k => b1 (ix1 k) := funext h2
  have e3 : (fun (q k : Fin 16) => x3 (ix2 k q)) = fun q k => w2 (ix2 q k) := funext fun q => funext fun k => h3 k q
  have e4 : (fun q : Fin 16 => x4 (ix2 (0 : Fin 1) q)) = fun q => b2 (ix1 q) := funext h4
  rw [payload_apply, Cert.Mlp.tokens_ix2, e0, e1, e2, e3, e4]

end Cert.KernelIdeal.Hand

end
-- ==== Proof.Staged.lean ====
/-
  What the region finds in the five arrays its input windows read.

  Before the region the host program prepares: the feature matrix (column 0 the node values, column 1 the local
  fields gathered, multiplied and summed over the edge list) — the same operations, in the same order, as the
  reference applies, so it is carried as the reference's own stage and never opened —; the two weight matrices
  transposed; and the two bias vectors recast as one-row matrices.
-/
import proofs.«110292_j91182155694146_2_alg».proof.Proof.Gen.KernelIdeal.Frame
import proofs.«110292_j91182155694146_2_alg».proof.Proof.Gen.ReferenceIdeal.Read
import Idealize.ShloMosaic.Lib.StableHlo.Run
import Idealize.ShloMosaic.Lib.ValueLayout

noncomputable section

namespace Cert.KernelIdeal.Hand

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The feature matrix at region entry is the reference's feature stage of the node values and the edge list. -/
theorem entry_feats (c : Dev nD) :
    (V m c main_v22 : S100000x2.Idx → EReal)
      = Cert.ReferenceIdeal.Read.val_main_v22 (F := Ideal) (m ((c : Thread nD τ).loc main_arg0)) (m ((c : Thread nD τ).loc main_arg1)) := by
  dsimp only [Gen.V, Gen.hostOps0]
  after_results_simp <;> rfl

/-- The first weight matrix arrives transposed. -/
theorem entry_w1t (c : Dev nD) :
    (V m c main_v23 : S2x16.Idx → EReal)
      = transpose S2x16 [1, 0] (m ((c : Thread nD τ).loc main_arg2)) Facts₀.transposes_S16x2_S2x16_1_0 := by
  dsimp only [Gen.V, Gen.hostOps0]
  after_results_simp <;> rfl

/-- The second weight matrix arrives transposed. -/
theorem entry_w2t (c : Dev nD) :
    (V m c main_v24 : S16x16.Idx → EReal)
      = transpose S16x16 [1, 0] (m ((c : Thread nD τ).loc main_arg4)) Facts₀.transposes_S16x16_S16x16_1_0 := by
  dsimp only [Gen.V, Gen.hostOps0]
  after_results_simp <;> rfl

/-- The first bias arrives as a one-row matrix. -/
theorem entry_b1r (c : Dev nD) :
    (V m c main_v25 : S1x16.Idx → EReal)
      = shapeCast S1x16 (m ((c : Thread nD τ).loc main_arg3)) Facts₀.shapeCasts_S16_S1x16 := by
  dsimp only [Gen.V, Gen.hostOps0]
  after_results_simp <;> rfl

/-- The second bias arrives as a one-row matrix. -/
theorem entry_b2r (c : Dev nD) :
    (V m c main_v26 : S1x16.Idx → EReal)
      = shapeCast S1x16 (m ((c : Thread nD τ).loc main_arg5)) Facts₀.shapeCasts_S16_S1x16 := by
  dsimp only [Gen.V, Gen.hostOps0]
  after_results_simp <;> rfl

end Cert.KernelIdeal.Hand

end
-- ==== Proof.KernelValue.lean ====
/-
  From the blocks to the whole array.

  Grid point t reads rows 10000·t … 10000·t + 9999 of the feature matrix, the whole of each weight matrix and bias
  row, and writes rows 10000·t … 10000·t + 9999 of the result.  What it writes is therefore that block of rows of the
  perceptron applied to every row of the feature matrix; the ten blocks tile the 100000 rows, so after the run the
  result array is that function everywhere.
-/
import proofs.«110292_j91182155694146_2_alg».proof.Proof.Gen.KernelIdeal.Value
import proofs.«110292_j91182155694146_2_alg».proof.Proof.Payload
import proofs.«110292_j91182155694146_2_alg».proof.Proof.Staged
import Idealize.ShloMosaic.Lib.Pipeline.Value
import Idealize.ShloMosaic.Lib.ValueLayout

noncomputable section

namespace Cert.KernelIdeal.Hand

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-- The index maps over the ten grid points: the feature window and the result window sit at block row t, column
    block 0; the weight and bias windows always at block (0, 0). -/
theorem index_maps : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The feature window's block at point t is rows 10000·t … of the feature matrix. -/
theorem feats_block (c : Dev nD) (t : Fin cfg0.N) (y : S10000x2.Idx) (k : S100000x2.Idx)
    (hk0 : (k 0).val = 10000 * t.val + (y 0).val) (hk1 : (k 1).val = (y 1).val) :
    (iblk m c 0 t : Vec Ideal S10000x2 .f32) y = (V m c main_v22 : S100000x2.Idx → EReal) k := by
  obtain ⟨e0, e1, -⟩ := index_maps t
  unfold iblk
  rw [View.read_apply]
  show V m c main_v22 _ = V m c main_v22 _
  refine congrArg (V m c main_v22) ?_
  funext a; apply Fin.ext
  match a with
  | ⟨0, _⟩ => show win0_0.index t (0 : Fin 2) * 10000 + 1 * (y 0).val = (k 0).val; rw [e0, hk0]; omega
  | ⟨1, _⟩ => show win0_0.index t (1 : Fin 2) * 2 + 1 * (y 1).val = (k 1).val; rw [e1, hk1]; omega

/-- The first weight window's block is the whole transposed matrix. -/
theorem w1t_block (c : Dev nD) (t : Fin cfg0.N) (y : S2x16.Idx) :
    (iblk m c 1 t : Vec Ideal S2x16 .f32) y = (V m c main_v23 : S2x16.Idx → EReal) y := by
  obtain ⟨-, -, e0, e1, -⟩ := index_maps t
  unfold iblk
  rw [View.read_apply]
  show V m c main_v23 _ = V m c main_v23 _
  refine congrArg (V m c main_v23) ?_
  funext a; apply Fin.ext
  match a with
  | ⟨0, _⟩ => show win0_1.index t (0 : Fin 2) * 2 + 1 * (y 0).val = (y 0).val; rw [e0]; omega
  | ⟨1, _⟩ => show win0_1.index t (1 : Fin 2) * 16 + 1 * (y 1).val = (y 1).val; rw [e1]; omega

/-- The first bias window's block is the whole one-row matrix. -/
theorem b1r_block (c : Dev nD) (t : Fin cfg0.N) (y : S1x16.Idx) :
    (iblk m c 2 t : Vec Ideal S1x16 .f32) y = (V m c main_v25 : S1x16.Idx → EReal) y := by
  obtain ⟨-, -, -, -, e0, e1, -⟩ := index_maps t
  unfold iblk
  rw [View.read_apply]
  show V m c main_v25 _ = V m c main_v25 _
  refine congrArg (V m c main_v25) ?_
  funext a; apply Fin.ext
  match a with
  | ⟨0, _⟩ => show win0_2.index t (0 : Fin 2) * 1 + 1 * (y 0).val = (y 0).val; rw [e0]; omega
  | ⟨1, _⟩ => show win0_2.index t (1 : Fin 2) * 16 + 1 * (y 1).val = (y 1).val; rw [e1]; omega

/-- The second weight window's block is the whole transposed matrix. -/
theorem w2t_block (c : Dev nD) (t : Fin cfg0.N) (y : S16x16.Idx) :
    (iblk m c 3 t : Vec Ideal S16x16 .f32) y = (V m c main_v24 : S16x16.Idx → EReal) y := by
  obtain ⟨-, -, -, -, -, -, e0, e1, -⟩ := index_maps t
  unfold iblk
  rw [View.read_apply]
  show V m c main_v24 _ = V m c main_v24 _
  refine congrArg (V m c main_v24) ?_
  funext a; apply Fin.ext
  match a with
  | ⟨0, _⟩ => show win0_3.index t (0 : Fin 2) * 16 + 1 * (y 0).val = (y 0).val; rw [e0]; omega
  | ⟨1, _⟩ => show win0_3.index t (1 : Fin 2) * 16 + 1 * (y 1).val = (y 1).val; rw [e1]; omega

/-- The second bias window's block is the whole one-row matrix. -/
theorem b2r_block (c : Dev nD) (t : Fin cfg0.N) (y : S1x16.Idx) :
    (iblk m c 4 t : Vec Ideal S1x16 .f32) y = (V m c main_v26 : S1x16.Idx → EReal) y := by
  obtain ⟨-, -, -, -, -, -, -, -, e0, e1, -⟩ := index_maps t
  unfold iblk
  rw [View.read_apply]
  show V m c main_v26 _ = V m c main_v26 _
  refine congrArg (V m c main_v26) ?_
  funext a; apply Fin.ext
  match a with
  | ⟨0, _⟩ => show win0_4.index t (0 : Fin 2) * 1 + 1 * (y 0).val = (y 0).val; rw [e0]; omega
  | ⟨1, _⟩ => show win0_4.index t (1 : Fin 2) * 16 + 1 * (y 1).val = (y 1).val; rw [e1]; omega

/-- The whole result as the kernel's program determines it: the perceptron on every row of the feature matrix the
    region finds, with the weight matrices and bias vectors as launched. -/
abbrev result (c : Dev nD) : Buf (Elt Ideal) ((c : Thread nD τ).loc main_v27) :=
  Cert.Mlp.tokens (V m c main_v22) (m ((c : Thread nD τ).loc main_arg2)) (m ((c : Thread nD τ).loc main_arg3))
    (m ((c : Thread nD τ).loc main_arg4)) (m ((c : Thread nD τ).loc main_arg5))

/-- What point t writes back is block t of `result`. -/
theorem flushed_eq (c : Dev nD) (t : Fin cfg0.N) :
    (dats m 0 c).flushed 5 t = ((cfg0.win 5).blk t).view.read (Elt Ideal) (result m c) := by
  rw [Value.flushed5]
  unfold out0_5
  rw [View.canon_unit_zero origin]
  simp only [View.ld_unit_zero (S := S10000x2) origin, View.ld_unit_zero (S := S2x16) origin,
    View.ld_unit_zero (S := S16x16) origin, View.ld_unit_zero (S := S1x16) origin]
  obtain ⟨-, -, -, -, -, -, -, -, -, -, e0, e1⟩ := index_maps t
  funext y
  show k0_pay1 (iblk m c 0 t) (iblk m c 1 t) (iblk m c 3 t) (iblk m c 2 t) (iblk m c 4 t) y
    = result m c (((cfg0.win 5).blk t).view.emb y)
  refine block_entry _ _ _ _ _ _ _ _ _ _ (10000 * t.val) ?_ ?_ ?_ ?_ ?_ y _ ?_ ?_
  · intro p j r hr
    exact feats_block m c t (ix2 p j) (ix2 r j) hr rfl
  · intro j k
    refine (w1t_block m c t (ix2 j k)).trans ?_
    rw [entry_w1t]
    exact transpose_ix2_apply _ _ j k
  · intro k
    refine (b1r_block m c t (ix2 (0 : Fin 1) k)).trans ?_
    rw [entry_b1r]
    exact shapeCast_a_1a_apply _ _ (0 : Fin 1) k
  · intro k q
    refine (w2t_block m c t (ix2 k q)).trans ?_
    rw [entry_w2t]
    exact transpose_ix2_apply _ _ k q
  · intro q
    refine (b2r_block m c t (ix2 (0 : Fin 1) q)).trans ?_
    rw [entry_b2r]
    exact shapeCast_a_1a_apply _ _ (0 : Fin 1) q
  · show win0_5.index t (0 : Fin 2) * 10000 + 1 * (y 0).val = 10000 * t.val + (y 0).val
    rw [e0]; omega
  · show win0_5.index t (1 : Fin 2) * 16 + 1 * (y 1).val = (y 1).val
    rw [e1]; omega

/-- An index of the result array is in point t's block iff each coordinate is in the block's range on its axis. -/
theorem mem_block (t : Fin cfg0.N) (i : S100000x16.Idx) :
    i ∈ ((cfg0.win 5).blk t).view.set ↔ ∀ a : Fin 2, win0_5.index t a * S10000x16.size a ≤ (i a).val
      ∧ (i a).val < win0_5.index t a * S10000x16.size a + S10000x16.size a := by
  show i ∈ ((View.whole main_v27).slice (win0_5.rect t)).set ↔ _
  rw [View.set_slice_whole, Rect.mem_set_unit]
  exact Iff.rfl

/-- Every index of the result array is in the block of the point its row falls in: row r belongs to point r / 10000. -/
theorem covered (i : S100000x16.Idx) :
    ∃ t : Fin cfg0.N, (cfg0.win 5).flush t = true ∧ i ∈ ((cfg0.win 5).blk t).view.set := by
  have hi0 : (i 0).val < 100000 := (i 0).isLt
  have hi1 : (i 1).val < 16 := (i 1).isLt
  have hN : grid0.N = 10 := N_0
  have ht : (i 0).val / 10000 < cfg0.N := by show (i 0).val / 10000 < grid0.N; rw [hN]; omega
  obtain ⟨-, -, -, -, -, -, -, -, -, -, e0, e1⟩ := index_maps ⟨(i 0).val / 10000, ht⟩
  refine ⟨⟨(i 0).val / 10000, ht⟩, flush0_5 _, ?_⟩
  rw [mem_block]
  intro a
  match a with
  | ⟨0, _⟩ =>
    show win0_5.index ⟨(i 0).val / 10000, ht⟩ (0 : Fin 2) * 10000 ≤ (i 0).val
      ∧ (i 0).val < win0_5.index ⟨(i 0).val / 10000, ht⟩ (0 : Fin 2) * 10000 + 10000
    rw [e0]; show (i 0).val / 10000 * 10000 ≤ (i 0).val ∧ (i 0).val < (i 0).val / 10000 * 10000 + 10000; omega
  | ⟨1, _⟩ =>
    show win0_5.index ⟨(i 0).val / 10000, ht⟩ (1 : Fin 2) * 16 ≤ (i 1).val
      ∧ (i 1).val < win0_5.index ⟨(i 0).val / 10000, ht⟩ (1 : Fin 2) * 16 + 16
    rw [e1]; omega

/-- After the run the result array is `result`. -/
theorem final (c : Dev nD) : (dats m 0 c).arrAt 5 cfg0.N = result m c :=
  (dats m 0 c).arrAt_eq_of_cover 5 (result m c) (fun t _ => flushed_eq m c t) covered

/-- The kernel program's run, read: the result array ends at the perceptron applied to every row of the reference's
    feature stage of the launched node values and edge list, and the arguments end as launched. -/
theorem run : θ_run defs (onTc (τ := τ) (main (F := Ideal))) ⟨m, fun _ => 0, ρ⟩ fun r => ∀ c : Dev nD,
      r.2.mem ((c : Thread nD τ).loc main_v27)
        = Cert.Mlp.tokens (Cert.ReferenceIdeal.Read.val_main_v22 (F := Ideal) (m ((c : Thread nD τ).loc main_arg0)) (m ((c : Thread nD τ).loc main_arg1)))
            (m ((c : Thread nD τ).loc main_arg2)) (m ((c : Thread nD τ).loc main_arg3))
            (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans ((final m c).trans (by unfold result; rw [entry_feats])), (h c).2⟩)
    (Value.run_blocks m ρ)

end Cert.KernelIdeal.Hand

end
-- ==== Proof.RefValue.lean ====
/-
  The reference's result, entry by entry.

  After the feature matrix the reference multiplies by the transposed first weight matrix, adds the bias broadcast
  over the rows, clamps at zero, multiplies by the transposed second weight matrix, adds the second bias and clamps
  again.  On the extended reals each product is the sum over the contracted axis, a transposed matrix read at (j, k)
  is the matrix at (k, j), and a bias broadcast to every row read at (r, k) is the bias at k: so entry (r, q) is
  output q of the perceptron on row r of the feature matrix.  The feature matrix itself is left as the stage it is.
-/
import proofs.«110292_j91182155694146_2_alg».proof.Proof.Gen.ReferenceIdeal.Read
import proofs.«110292_j91182155694146_2_alg».proof.Proof.Spec
import Idealize.ShloMosaic.PureOps.Ideal.Laws

noncomputable section

namespace Cert.ReferenceIdeal.RefValue

open Cert.ReferenceIdeal Cert.ReferenceIdeal.Read Idealize.ShloMosaic Idealize.ShloMosaic.ValueIdx

variable (x0 : (⟨S100000x1, .f32⟩ : BufTy).Contents (Elt Ideal)) (x1 : (⟨S2x6400000, .i32⟩ : BufTy).Contents (Elt Ideal))
  (x2 : (⟨S16x2, .f32⟩ : BufTy).Contents (Elt Ideal)) (x3 : (⟨S16, .f32⟩ : BufTy).Contents (Elt Ideal))
  (x4 : (⟨S16x16, .f32⟩ : BufTy).Contents (Elt Ideal)) (x5 : (⟨S16, .f32⟩ : BufTy).Contents (Elt Ideal))

/-- The clamped first layer at (r, k) is hidden unit k of row r of the feature matrix. -/
theorem hidden_eq (r : Fin 100000) (k : Fin 16) :
    val_main_v28 (F := Ideal) x0 x1 x2 x3 (ix2 r k)
      = Cert.Mlp.hidden (fun j => val_main_v22 (F := Ideal) x0 x1 (ix2 r j)) (fun k j => x2 (ix2 k j)) (fun k => x3 (ix1 k)) k := by
  unfold Cert.Mlp.hidden
  refine (val_main_v28_apply x0 x1 x2 x3 (ix2 r k)).trans ?_
  refine congrArg₂ max ?_ ?_
  · refine (val_main_v27_apply x0 x1 x2 x3 (ix2 r k)).trans ?_
    refine congrArg₂ (· + ·) ?_ ?_
    · refine (val_main_v24_apply x0 x1 x2 (ix2 r k)).trans ?_
      refine Finset.sum_congr rfl fun j _ => ?_
      refine congrArg₂ (· * ·) (congrArg (val_main_v22 (F := Ideal) x0 x1) ?_) ?_
      · funext a; apply Fin.ext
        match a with
        | ⟨0, _⟩ => rfl
        | ⟨1, _⟩ => rfl
      · refine (val_main_v23_apply x2 _).trans (congrArg x2 ?_)
        funext a; apply Fin.ext
        match a with
        | ⟨0, _⟩ => rfl
        | ⟨1, _⟩ => rfl
    · refine (val_main_v26_apply x3 _).trans ((val_main_v25_apply x3 _).trans (congrArg x3 ?_))
      funext a; apply Fin.ext
      match a with
      | ⟨0, _⟩ => rfl
  · refine (val_main_call0_v0_apply _).trans ?_
    exact Ideal.ofBits_zero_f32

/-- The reference's result is the perceptron applied to every row of its feature stage. -/
theorem result_eq :
    val_main_v34 (F := Ideal) x0 x1 x2 x3 x4 x5
      = Cert.Mlp.tokens (val_main_v22 (F := Ideal) x0 x1) x2 x3 x4 x5 := by
  funext i
  obtain ⟨r, q, rfl⟩ : ∃ (r : Fin 100000) (q : Fin 16), i = ix2 r q := ⟨i 0, i 1, eq_ix2 i⟩
  rw [Cert.Mlp.tokens_ix2]
  unfold Cert.Mlp.token
  refine (val_main_v34_apply x0 x1 x2 x3 x4 x5 (ix2 r q)).trans ?_
  refine congrArg₂ max ?_ ?_
  · refine (val_main_v33_apply x0 x1 x2 x3 x4 x5 (ix2 r q)).trans ?_
    refine congrArg₂ (· + ·) ?_ ?_
    · refine (val_main_v30_apply x0 x1 x2 x3 x4 (ix2 r q)).trans ?_
      refine Finset.sum_congr rfl fun k _ => ?_
      refine congrArg₂ (· * ·) ?_ ?_
      · refine (congrArg (val_main_v28 (F := Ideal) x0 x1 x2 x3) ?_).trans (hidden_eq x0 x1 x2 x3 r k)
        funext a; apply Fin.ext
        match a with
        | ⟨0, _⟩ => rfl
        | ⟨1, _⟩ => rfl
      · refine (val_main_v29_apply x4 _).trans (congrArg x4 ?_)
        funext a; apply Fin.ext
        match a with
        | ⟨0, _⟩ => rfl
        | ⟨1, _⟩ => rfl
    · refine (val_main_v32_apply x5 _).trans ((val_main_v31_apply x5 _).trans (congrArg x5 ?_))
      funext a; apply Fin.ext
      match a with
      | ⟨0, _⟩ => rfl
  · refine (val_main_call1_v0_apply _).trans ?_
    exact Ideal.ofBits_zero_f32

end Cert.ReferenceIdeal.RefValue

end
-- ==== Proof.Claims.lean ====
/-
  The five claims.

  The two kernel programs' frames are their generated frame runs; the reference has no kernel, and its frame is its
  run with the result forgotten.  The idealization rewrote nothing, so there is nothing to preserve.  For the
  equivalence, both programs' results are the same function of the launched arrays: the perceptron applied to every
  row of the feature matrix that the shared host operations prepare from the node values and the edge list.
-/
import proofs.«110292_j91182155694146_2_alg».proof.Defs
import proofs.«110292_j91182155694146_2_alg».proof.Proof.Gen.Kernel.Frame
import proofs.«110292_j91182155694146_2_alg».proof.Proof.Gen.KernelIdeal.Frame
import proofs.«110292_j91182155694146_2_alg».proof.Proof.Gen.ReferenceIdeal.Run
import proofs.«110292_j91182155694146_2_alg».proof.Proof.Gen.ReferenceIdeal.Read
import proofs.«110292_j91182155694146_2_alg».proof.Proof.Gen.Pre_finite_inputs
import proofs.«110292_j91182155694146_2_alg».proof.Proof.KernelValue
import proofs.«110292_j91182155694146_2_alg».proof.Proof.RefValue

noncomputable section

namespace Cert.Proof.Claims

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the six arguments both programs end with the result array at the perceptron applied
    to every row of the feature stage of the node values and the edge list. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v34_eq, Cert.ReferenceIdeal.RefValue.result_eq,
    (hagree c).1, (hagree c).2.1, (hagree c).2.2.1, (hagree c).2.2.2.1, (hagree c).2.2.2.2.1, (hagree c).2.2.2.2.2]

end Cert.Proof.Claims

end
-- ==== Proof.lean ====
/-
  The certificate: the kernel program, its idealization and the reference run without fault and leave their arguments
  as launched, and at the ideal values the idealized kernel and the reference end with equal result arrays.

  The program gathers each edge's two node values, multiplies them and sums the products into the edge's first node
  (the local field), joins node value and local field into a two-column feature matrix, and applies a two-layer
  perceptron with relu to every row.  The kernel program does the perceptron in a Pallas kernel over ten blocks of
  10000 rows, the reference with two whole matrix products; the operations before it are the same in both.  The
  modules: the perceptron as a function of a row (Spec), what the kernel body stores entry by entry (Payload, over
  a plain matrix product read as a sum, LibMatmul2), the arrays the region finds (Staged), the blocks joined into the
  whole array (KernelValue), the reference's result entry by entry (RefValue), and the five claims (Claims).
-/
import proofs.«110292_j91182155694146_2_alg».proof.Defs
import proofs.«110292_j91182155694146_2_alg».proof.Proof.Gen.Kernel
import proofs.«110292_j91182155694146_2_alg».proof.Proof.Gen.Kernel.Skeleton
import proofs.«110292_j91182155694146_2_alg».proof.Proof.Gen.Kernel.Launch
import proofs.«110292_j91182155694146_2_alg».proof.Proof.Gen.Kernel.Points
import proofs.«110292_j91182155694146_2_alg».proof.Proof.Gen.Kernel.Frame
import proofs.«110292_j91182155694146_2_alg».proof.Proof.Gen.KernelIdeal
import proofs.«110292_j91182155694146_2_alg».proof.Proof.Gen.KernelIdeal.Skeleton
import proofs.«110292_j91182155694146_2_alg».proof.Proof.Gen.KernelIdeal.Launch
import proofs.«110292_j91182155694146_2_alg».proof.Proof.Gen.KernelIdeal.Points
import proofs.«110292_j91182155694146_2_alg».proof.Proof.Gen.KernelIdeal.Frame
import proofs.«110292_j91182155694146_2_alg».proof.Proof.Gen.ReferenceIdeal
import proofs.«110292_j91182155694146_2_alg».proof.Proof.Gen.Pre_finite_inputs
import proofs.«110292_j91182155694146_2_alg».proof.Proof.Gen.KernelIdeal.Value
import proofs.«110292_j91182155694146_2_alg».proof.Proof.Gen.ReferenceIdeal.Run
import proofs.«110292_j91182155694146_2_alg».proof.Proof.Gen.ReferenceIdeal.Read
import proofs.«110292_j91182155694146_2_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_kernel, Claims.frame_kernelIdeal, Claims.frame_reference, Claims.preserves, Claims.algebraic⟩

end Cert.Proof

end
